-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The mathematics of one graph-convolution layer, out = A · (X · Wᵀ), over the extended reals, for the literal
  shapes X : [10000, 128], A : [10000, 10000], W : [128, 128].

  Two arrangements of the same entry (i, o):
    * band-wise:  ∑ j, (∑ k, A (i, k) · X (k, j)) · W (o, j)   — first the rows of A against X, then the projection;
    * layer-wise: ∑ k, A (i, k) · (∑ j, X (k, j) · W (o, j))   — first the projection h = X · Wᵀ, then A against h.
  They agree by associativity of the matrix product, which rests on distributivity and on exchanging the two
  finite sums. On the extended reals distributivity fails at the infinities, so the law is stated for arrays all
  of whose entries are real numbers; it is proved over ℝ for abstract finite index types and carried to the
  extended reals through the coercion.
-/
import Idealize.ShloMosaic.PureOps.Ideal
import Idealize.ShloMosaic.Lib.ValueIdx

noncomputable section

open scoped BigOperators
open Idealize.ShloMosaic Idealize.ShloMosaic.ValueIdx

namespace Cert.GraphLayer

/-! ## Associativity of the matrix product, over ℝ and then over real-valued extended reals -/

/-- The coercion ℝ → EReal commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a · x) · w = a · (x · w) for a row a, a matrix x and a column w of real numbers: distribute both
    products over the inner sums, exchange the sums, reassociate each product of three. -/
theorem assoc_real {K J : Type} [Fintype K] [Fintype J] (a : K → ℝ) (x : K → J → ℝ) (w : J → ℝ) :
    ∑ j, (∑ k, a k * x k j) * w j = ∑ k, a k * ∑ j, x k j * w j := by
  simp only [Finset.sum_mul, Finset.mul_sum]
  rw [Finset.sum_comm]
  exact Finset.sum_congr rfl fun k _ => Finset.sum_congr rfl fun j _ => mul_assoc _ _ _

/-- The same law for extended reals that are real numbers. -/
theorem assoc_coe {K J : Type} [Fintype K] [Fintype J] (a : K → ℝ) (x : K → J → ℝ) (w : J → ℝ) :
    ∑ j, (∑ k, (a k : EReal) * (x k j : EReal)) * (w j : EReal)
      = ∑ k, (a k : EReal) * ∑ j, (x k j : EReal) * (w j : EReal) := by
  simp only [← EReal.coe_mul, ← coe_sum]
  exact congrArg _ (assoc_real a x w)

/-! ## The layer at its literal shapes -/

/-- An extended real that is a real number: neither infinity. -/
def IsReal (x : EReal) : Prop := x ≠ ⊤ ∧ x ≠ ⊥

theorem IsReal.coe_toReal {x : EReal} (h : IsReal x) : ((x.toReal : ℝ) : EReal) = x := EReal.coe_toReal h.1 h.2

/-- Entry (i, o) of (A · X) · Wᵀ: row i of A against X, then against row o of W. -/
def bandwise (X : (⟨2, ![10000, 128]⟩ : Shape).Idx → EReal) (A : (⟨2, ![10000, 10000]⟩ : Shape).Idx → EReal)
    (W : (⟨2, ![128, 128]⟩ : Shape).Idx → EReal) : (⟨2, ![10000, 128]⟩ : Shape).Idx → EReal :=
  fun i => ∑ j : Fin 128, (∑ k : Fin 10000, A (ix2 (n0 := 10000) (n1 := 10000) (i 0) k) * X (ix2 k j))
    * W (ix2 (n0 := 128) (n1 := 128) (i 1) j)

/-- Entry (i, o) of A · (X · Wᵀ): row i of A against column o of h = X · Wᵀ. -/
def layerwise (X : (⟨2, ![10000, 128]⟩ : Shape).Idx → EReal) (A : (⟨2, ![10000, 10000]⟩ : Shape).Idx → EReal)
    (W : (⟨2, ![128, 128]⟩ : Shape).Idx → EReal) : (⟨2, ![10000, 128]⟩ : Shape).Idx → EReal :=
  fun i => ∑ k : Fin 10000, A (ix2 (n0 := 10000) (n1 := 10000) (i 0) k)
    * ∑ j : Fin 128, X (ix2 k j) * W (ix2 (n0 := 128) (n1 := 128) (i 1) j)

/-- On arrays of real numbers the two arrangements are one function. -/
theorem bandwise_eq_layerwise (X : (⟨2, ![10000, 128]⟩ : Shape).Idx → EReal)
    (A : (⟨2, ![10000, 10000]⟩ : Shape).Idx → EReal) (W : (⟨2, ![128, 128]⟩ : Shape).Idx → EReal)
    (hX : ∀ i, IsReal (X i)) (hA : ∀ i, IsReal (A i)) (hW : ∀ i, IsReal (W i)) :
    bandwise X A W = layerwise X A W := by
  funext i
  have cX : ∀ i, (((X i).toReal : ℝ) : EReal) = X i := fun i => (hX i).coe_toReal
  have cA : ∀ i, (((A i).toReal : ℝ) : EReal) = A i := fun i => (hA i).coe_toReal
  have cW : ∀ i, (((W i).toReal : ℝ) : EReal) = W i := fun i => (hW i).coe_toReal
  have h := assoc_coe (fun k : Fin 10000 => (A (ix2 (n0 := 10000) (n1 := 10000) (i 0) k)).toReal)
    (fun (k : Fin 10000) (j : Fin 128) => (X (ix2 k j)).toReal)
    (fun j : Fin 128 => (W (ix2 (n0 := 128) (n1 := 128) (i 1) j)).toReal)
  simp only [cX, cA, cW] at h
  exact h

end Cert.GraphLayer

end
-- ==== Proof.RefValue.lean ====
/-
  The reference computes the layer-wise arrangement. Its program is three host operations: the transpose of W,
  the product h = X · Wᵀ (a dot_general contracting the second axis of X with the first of Wᵀ), and the product
  A · h. Read at an index (r, o), operation by operation from the outside in:
    out (r, o) = ∑ k, A (r, k) · h (k, o),   h (k, o) = ∑ j, X (k, j) · Wᵀ (j, o),   Wᵀ (j, o) = W (o, j),
  which is Spec's layerwise, entry by entry; the only work is to identify the index functions the operations
  are read through with indices built from coordinates.
-/
import proofs.«131289_g11158325035210_week1_w3_1128_17_alg».proof.Proof.Gen.ReferenceIdeal.Read
import proofs.«131289_g11158325035210_week1_w3_1128_17_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.GraphLayer

/-- Row r of A at column k. -/
theorem lidx_v2 (r : Fin 10000) (o : Fin 128) (k : Fin 10000) :
    lidx_main_v2 (ix2 (n0 := 10000) (n1 := 128) r o) k = ix2 (n0 := 10000) (n1 := 10000) r k :=
  funext fun a => match a with | ⟨0, _⟩ => rfl | ⟨1, _⟩ => rfl

/-- Row k of h at column o. -/
theorem ridx_v2 (r : Fin 10000) (o : Fin 128) (k : Fin 10000) :
    ridx_main_v2 (ix2 (n0 := 10000) (n1 := 128) r o) k = ix2 (n0 := 10000) (n1 := 128) k o :=
  funext fun a => match a with | ⟨0, _⟩ => rfl | ⟨1, _⟩ => rfl

/-- Row k of X at column j. -/
theorem lidx_v1 (k : Fin 10000) (o : Fin 128) (j : Fin 128) :
    lidx_main_v1 (ix2 (n0 := 10000) (n1 := 128) k o) j = ix2 (n0 := 10000) (n1 := 128) k j :=
  funext fun a => match a with | ⟨0, _⟩ => rfl | ⟨1, _⟩ => rfl

/-- Entry (j, o) of Wᵀ is entry (o, j) of W. -/
theorem tidx_v0 (k : Fin 10000) (o : Fin 128) (j : Fin 128) :
    idx_main_v0 (ridx_main_v1 (ix2 (n0 := 10000) (n1 := 128) k o) j) = ix2 (n0 := 128) (n1 := 128) o j :=
  funext fun a => match a with | ⟨0, _⟩ => rfl | ⟨1, _⟩ => rfl

/-- The reference's result at (r, o): row r of A against column o of h = X · Wᵀ. -/
theorem result_apply (x0 : (⟨S10000x128, .f32⟩ : BufTy).Contents (Elt Ideal))
    (x1 : (⟨S10000x10000, .f32⟩ : BufTy).Contents (Elt Ideal)) (x2 : (⟨S128x128, .f32⟩ : BufTy).Contents (Elt Ideal))
    (r : Fin 10000) (o : Fin 128) :
    val_main_v2 (F := Ideal) x0 x1 x2 (ix2 (n0 := 10000) (n1 := 128) r o)
      = ∑ k : Fin 10000, x1 (ix2 (n0 := 10000) (n1 := 10000) r k)
          * ∑ j : Fin 128, x0 (ix2 (n0 := 10000) (n1 := 128) k j) * x2 (ix2 (n0 := 128) (n1 := 128) o j) := by
  rw [val_main_v2_apply]
  refine Finset.sum_congr rfl fun k _ => ?_
  rw [lidx_v2, ridx_v2, val_main_v1_apply]
  refine congrArg (x1 _ * ·) (Finset.sum_congr rfl fun j _ => ?_)
  rw [val_main_v0_apply, lidx_v1, tidx_v0]

/-- The reference's result, as a function of the three argument arrays, is the layer-wise arrangement. -/
theorem result_eq (x0 : (⟨S10000x128, .f32⟩ : BufTy).Contents (Elt Ideal))
    (x1 : (⟨S10000x10000, .f32⟩ : BufTy).Contents (Elt Ideal)) (x2 : (⟨S128x128, .f32⟩ : BufTy).Contents (Elt Ideal)) :
    val_main_v2 (F := Ideal) x0 x1 x2 = layerwise x0 x1 x2 := by
  funext i
  obtain ⟨r, o, rfl⟩ : ∃ (r : Fin 10000) (o : Fin 128), i = ix2 r o := ⟨i 0, i 1, eq_ix2 i⟩
  exact result_apply x0 x1 x2 r o

end Cert.ReferenceIdeal.RefValue

end
-- ==== Proof.Payload.lean ====
/-
  What the kernel's body stores, read at an index. The body loads a band of 400 rows of A, all of X and all of W,
  forms u = band · X on the matrix unit into a zero accumulator, transposes W, forms u · Wᵀ into a zero
  accumulator, and stores it. At the exact instance a matrix product into the zero accumulator is the plain
  sum of products over the contracted axis, and the transpose exchanges the two coordinates, so entry (p, q) of
  the stored block is
      ∑ j, (∑ k, band (p, k) · X (k, j)) · W (q, j).
-/
import proofs.«131289_g11158325035210_week1_w3_1128_17_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Band

open Cert.KernelIdeal Cert.KernelIdeal.Gen

/-! ## The first product: a band of A against X -/

theorem lhs_ax_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhs_ax_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_ax_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_ax_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Entry (p, j) of band · X into the zero accumulator: the sum over the 10000 columns of the band. -/
theorem bandX_apply (a : FVec Ideal S400x10000 .f32) (x : FVec Ideal S10000x128 .f32) (p : Fin 400) (j : Fin 128) :
    matmul (F := Ideal) dot_S400x10000_S10000x128_S400x128_1_0_0_1_n_n none a x
        (constant (F := Ideal) S400x128 .f32 0x00000000#32) (ix2 p j)
      = ∑ k : Fin 10000, a (ix2 p k) * x (ix2 k j) := by
  simp only [matmul]
  rw [Ideal.matmul_constant_zero_apply,
    ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j)
      ((contrEquiv1 dot_S400x10000_S10000x128_S400x128_1_0_0_1_n_n 10000 rfl rfl).symm k) = ix2 p k :=
    funext fun b => Fin.ext (by
      match b with
      | ⟨0, _⟩ => exact lhs_ax_0 _ _
      | ⟨1, _⟩ => exact (lhs_ax_1 _ _).trans hk)
  have er : dot_S400x10000_S10000x128_S400x128_1_0_0_1_n_n.rhsIdx (ix2 p j)
      ((contrEquiv1 dot_S400x10000_S10000x128_S400x128_1_0_0_1_n_n 10000 rfl rfl).symm k) = ix2 k j :=
    funext fun b => Fin.ext (by
      match b with
      | ⟨0, _⟩ => exact (rhs_ax_0 _ _).trans hk
      | ⟨1, _⟩ => exact rhs_ax_1 _ _)
  rw [el, er]

/-! ## The second product: the 400 × 128 intermediate against Wᵀ -/

theorem lhs_uw_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhs_uw_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_uw_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_uw_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- Entry (p, q) of u · v into the zero accumulator: the sum over the 128 columns of u. -/
theorem proj_apply (u : FVec Ideal S400x128 .f32) (v : FVec Ideal S128x128 .f32) (p : Fin 400) (q : Fin 128) :
    matmul (F := Ideal) dot_S400x128_S128x128_S400x128_1_0_0_1_n_n none u v
        (constant (F := Ideal) S400x128 .f32 0x00000000#32) (ix2 p q)
      = ∑ j : Fin 128, u (ix2 p j) * v (ix2 j q) := by
  simp only [matmul]
  rw [Ideal.matmul_constant_zero_apply,
    ← Equiv.sum_comp (contrEquiv1 dot_S400x128_S128x128_S400x128_1_0_0_1_n_n 128 rfl rfl).symm]
  refine Finset.sum_congr rfl fun j _ => ?_
  have hj := contrEquiv1_symm_val dot_S400x128_S128x128_S400x128_1_0_0_1_n_n 128 rfl rfl j
  have el : dot_S400x128_S128x128_S400x128_1_0_0_1_n_n.lhsIdx (ix2 p q)
      ((contrEquiv1 dot_S400x128_S128x128_S400x128_1_0_0_1_n_n 128 rfl rfl).symm j) = ix2 p j :=
    funext fun b => Fin.ext (by
      match b with
      | ⟨0, _⟩ => exact lhs_uw_0 _ _
      | ⟨1, _⟩ => exact (lhs_uw_1 _ _).trans hj)
  have er : dot_S400x128_S128x128_S400x128_1_0_0_1_n_n.rhsIdx (ix2 p q)
      ((contrEquiv1 dot_S400x128_S128x128_S400x128_1_0_0_1_n_n 128 rfl rfl).symm j) = ix2 j q :=
    funext fun b => Fin.ext (by
      match b with
      | ⟨0, _⟩ => exact (rhs_uw_0 _ _).trans hj
      | ⟨1, _⟩ => exact rhs_uw_1 _ _)
  rw [el, er]

/-- Entry (j, q) of the transposed W is entry (q, j) of W. -/
theorem wT_apply (w : FVec Ideal S128x128 .f32) (j q : Fin 128) :
    transpose S128x128 [1, 0] w transposes_S128x128_p1_0_S128x128 (ix2 j q) = w (ix2 q j) :=
  transpose_apply [1, 0] w transposes_S128x128_p1_0_S128x128 (ix2 j q) (ix2 q j) (fun b => match b with
    | ⟨0, _⟩ => rfl
    | ⟨1, _⟩ => rfl)

/-! ## The stored block -/

/-- Entry (p, q) of the block the body stores, from the three loaded blocks. -/
theorem stored_apply (a : Vec Ideal S400x10000 .f32) (x : Vec Ideal S10000x128 .f32) (w : Vec Ideal S128x128 .f32)
    (p : Fin 400) (q : Fin 128) :
    k0_pay1 (F := Ideal) a x w (ix2 p q)
      = ∑ j : Fin 128, (∑ k : Fin 10000, a (ix2 p k) * x (ix2 k j)) * w (ix2 q j) := by
  unfold k0_pay1
  refine (proj_apply _ _ p q).trans ?_
  refine Finset.sum_congr rfl fun j _ => ?_
  rw [bandX_apply, wT_apply]

end Cert.KernelIdeal.Band

end
-- ==== Proof.BandArray.lean ====
/-
  From the blocks the grid points write back to the whole result array.

  The grid has 25 points; point t stages rows 400·t … 400·t + 399 of A (all 10000 columns), the whole of X and the
  whole of W, and writes back rows 400·t … 400·t + 399 of the result (all 128 columns). So entry (p, q) of the
  block written at point t is entry (400·t + p, q) of the band-wise arrangement of the three argument arrays: the
  band's row p is row 400·t + p of A, and X and W are read where they lie. The 25 blocks tile the 10000 rows
  (row r lies in the block of point r / 400), hence the result array ends holding the band-wise arrangement.
-/
import proofs.«131289_g11158325035210_week1_w3_1128_17_alg».proof.Proof.Gen.KernelIdeal.Value
import proofs.«131289_g11158325035210_week1_w3_1128_17_alg».proof.Proof.Payload
import proofs.«131289_g11158325035210_week1_w3_1128_17_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Band

open Cert.KernelIdeal Cert.KernelIdeal.Gen Cert.KernelIdeal.Value Cert.GraphLayer

variable (m : (ℓ : Loc nD τ sig) → Buf (Elt Ideal) ℓ) (ρ : Dev nD → PrngReg)

theorem zero_offsets : (![0, 0] : Fin 2 → Nat) = fun _ => 0 := funext fun a => by fin_cases a <;> rfl

/-! ## The index maps over the grid -/

/-- Decided over the 25 points: the band of A moves down with the output block and spans every column; X and W
    are always their one whole block; the output block spans every column and its row index is at most 24. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 24 :=
  (by decide +kernel : ∀ t : Fin grid0.N, _)

/-- Every one of the 25 row blocks is some point's. -/
theorem index_onto : ∀ b : Fin 25, ∃ t : Fin cfg0.N, win0_3.index t = ![b.val, 0] :=
  (by decide +kernel : ∀ b : Fin 25, ∃ t : Fin grid0.N, win0_3.index t = ![b.val, 0])

/-! ## The staged blocks, read in the argument arrays -/

/-- Row p, column k of the band staged at point t is row r, column k of A, where r = 400 · (block row) + p. -/
theorem bandA_apply (c : Dev nD) (t : Fin cfg0.N) (p : Fin 400) (k : Fin 10000) (r : Fin 10000)
    (hr : r.val = win0_3.index t (0 : Fin 2) * 400 + p.val) :
    (iblk m c 0 t : Vec Ideal S400x10000 .f32) (ix2 p k)
      = (V m c main_arg1 : S10000x10000.Idx → EReal) (ix2 r k) := by
  obtain ⟨e0, e1, -⟩ := index_facts t
  show V m c main_arg1 (((cfg0.win 0).blk t).view.emb (ix2 p k)) = V m c main_arg1 (ix2 r k)
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The staged X is X. -/
theorem wholeX_apply (c : Dev nD) (t : Fin cfg0.N) (k : Fin 10000) (j : Fin 128) :
    (iblk m c 1 t : Vec Ideal S10000x128 .f32) (ix2 k j)
      = (V m c main_arg0 : S10000x128.Idx → EReal) (ix2 k j) := by
  obtain ⟨-, -, e2, e3, -⟩ := index_facts t
  show V m c main_arg0 (((cfg0.win 1).blk t).view.emb (ix2 k j)) = V m c main_arg0 (ix2 k j)
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * j.val = j.val; omega

/-- The staged W is W. -/
theorem wholeW_apply (c : Dev nD) (t : Fin cfg0.N) (q : Fin 128) (j : Fin 128) (o : Fin 128) (ho : o.val = q.val) :
    (iblk m c 2 t : Vec Ideal S128x128 .f32) (ix2 q j)
      = (V m c main_arg2 : S128x128.Idx → EReal) (ix2 o j) := by
  obtain ⟨-, -, -, -, e4, e5, -⟩ := index_facts t
  show V m c main_arg2 (((cfg0.win 2).blk t).view.emb (ix2 q j)) = V m c main_arg2 (ix2 o j)
  refine congrArg _ (funext fun a => Fin.ext ?_)
  match a with
  | ⟨0, _⟩ => show win0_2.index t (0 : Fin 2) * 128 + 1 * q.val = o.val; omega
  | ⟨1, _⟩ => show win0_2.index t (1 : Fin 2) * 128 + 1 * j.val = j.val; omega

/-! ## What a point writes back -/

/-- The band-wise arrangement at an index, written out. -/
theorem bandwise_apply (X : (⟨2, ![10000, 128]⟩ : Shape).Idx → EReal) (A : (⟨2, ![10000, 10000]⟩ : Shape).Idx → EReal)
    (W : (⟨2, ![128, 128]⟩ : Shape).Idx → EReal) (i : (⟨2, ![10000, 128]⟩ : Shape).Idx) :
    bandwise X A W i = ∑ j : Fin 128, (∑ k : Fin 10000, A (ix2 (n0 := 10000) (n1 := 10000) (i 0) k) * X (ix2 k j))
      * W (ix2 (n0 := 128) (n1 := 128) (i 1) j) := rfl

/-- Point t writes back block t of the band-wise arrangement of the argument arrays. -/
theorem flushed_eq (c : Dev nD) (t : Fin cfg0.N) :
    (dats m 0 c).flushed 3 t = ((cfg0.win 3).blk t).view.read (Elt Ideal)
      (bandwise (V m c main_arg0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S400x10000) zero_offsets, View.ld_unit_zero (S := S10000x128) zero_offsets,
    View.ld_unit_zero (S := S128x128) zero_offsets]
  obtain ⟨-, -, -, -, -, -, e6, e7⟩ := index_facts t
  refine funext fun (y : S400x128.Idx) => ?_
  obtain ⟨p, q, rfl⟩ : ∃ (p : Fin 400) (q : Fin 128), y = ix2 p q := ⟨y 0, y 1, eq_ix2 y⟩
  have hr : ((((cfg0.win 3).blk t).view.emb (ix2 p q) : S10000x128.Idx) 0).val
      = win0_3.index t (0 : Fin 2) * 400 + p.val := by
    show win0_3.index t (0 : Fin 2) * 400 + 1 * p.val = _; omega
  have ho : ((((cfg0.win 3).blk t).view.emb (ix2 p q) : S10000x128.Idx) 1).val = q.val := by
    show win0_3.index t (1 : Fin 2) * 128 + 1 * q.val = _; omega
  show k0_pay1 (F := Ideal) (iblk m c 0 t) (iblk m c 1 t) (iblk m c 2 t) (ix2 p q)
    = bandwise (V m c main_arg0) (V m c main_arg1) (V m c main_arg2) (((cfg0.win 3).blk t).view.emb (ix2 p q))
  refine (stored_apply (iblk m c 0 t) (iblk m c 1 t) (iblk m c 2 t) p q).trans ?_
  rw [bandwise_apply]
  exact Finset.sum_congr rfl fun j _ => congrArg₂ (· * ·)
    (Finset.sum_congr rfl fun k _ => congrArg₂ (· * ·) (bandA_apply m c t p k _ hr) (wholeX_apply m c t k j))
    (wholeW_apply m c t q j _ ho)

/-! ## The blocks tile the array -/

/-- An index of the result array is in point t's block iff each coordinate is in the block's range on its axis. -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Row r of the result lies in the block of the point whose block row is r / 400. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := index_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-! ## The array after the run, and the run -/

/-- The result array after the run is the band-wise arrangement of the argument arrays as launched. -/
theorem result_array (c : Dev nD) : (dats m 0 c).arrAt 3 cfg0.N
    = bandwise (m ((c : Thread nD τ).loc main_arg0)) (m ((c : Thread nD τ).loc main_arg1)) (m ((c : Thread nD τ).loc main_arg2)) :=
  (dats m 0 c).arrAt_eq_of_cover 3 (bandwise (V m c main_arg0) (V m c main_arg1) (V m c main_arg2))
    (fun t _ => flushed_eq m c t) covered

/-- Every weakly fair execution of the kernel's program terminates with the result array at the band-wise
    arrangement of the arguments, the arguments unchanged. -/
theorem run : θ_run defs (onTc (τ := τ) (main (F := Ideal))) ⟨m, fun _ => 0, ρ⟩ fun r => ∀ c : Dev nD,
      r.2.mem ((c : Thread nD τ).loc main_v0)
        = bandwise (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.KernelIdeal.Band

end
-- ==== Proof.Finite.lean ====
/-
  The precondition, read back: every entry of the three argument arrays is a real number.

  The precondition is the conjunction of three tests, one per array: all entries satisfy |x| < +∞. Each test
  is a reduction by "and" of the entrywise comparisons, from the initial value 1, into a result with a single
  index; the result being 1, every comparison is 1. At the exact instance |x| is max x (−x), the word
  0x7F800000 denotes +∞, and the comparison is the order of the extended reals: max x (−x) < +∞ excludes both
  x = +∞ and x = −∞ (whose negation is +∞).
-/
import proofs.«131289_g11158325035210_week1_w3_1128_17_alg».proof.Pre_finite_inputs
import proofs.«131289_g11158325035210_week1_w3_1128_17_alg».proof.Proof.Spec
import Idealize.ShloMosaic.PureOps.Ideal
import Idealize.ShloMosaic.Lib.ReduceAll
import Idealize.ShloMosaic.Lib.ValueIdx

noncomputable section

open Idealize.ShloMosaic Idealize.ShloMosaic.ValueIdx

namespace Cert.Pre_finite_inputs.ReadBack

open Cert.Pre_finite_inputs Cert.GraphLayer

/-- The shape of a scalar has exactly one index. -/
instance : Subsingleton S_.Idx := ⟨fun a b => funext fun d => d.elim0⟩

/-- The word 0x7F800000 denotes +∞. -/
theorem inf_word : Ideal.ofBits .f32 0x7F800000#32 = ⊤ := by simp [Ideal.ofBits, Ideal.ieee]

/-- |x| < +∞ says that x is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [inf_word] at h'
  have e : Ideal.cmp .olt (max x (-x)) ⊤ = BitVec.ofBool (decide (max x (-x) < ⊤)) := rfl
  rw [e] at h'
  have hlt : max x (-x) < ⊤ := by
    by_contra hn
    rw [decide_eq_false hn] at h'
    exact absurd h' (by decide)
  refine ⟨?_, ?_⟩
  · rintro rfl
    simp at hlt
  · rintro rfl
    simp at hlt

variable [Facts]

/-- Under the precondition every entry of X, of A and of W is a real number. -/
theorem all_real (X : FVec Ideal S10000x128 .f32) (A : FVec Ideal S10000x10000 .f32) (W : FVec Ideal S128x128 .f32)
    (h : fn (F := Ideal) X A W = fun _ => 1#1) :
    (∀ i, IsReal (X i)) ∧ (∀ i, IsReal (A i)) ∧ (∀ i, IsReal (W i)) := by
  have h0 := congrFun h ix0
  dsimp only [fn] at h0
  obtain ⟨h12, h3⟩ := IntOp.andi_eq_one.1 h0
  obtain ⟨h1, h2⟩ := IntOp.andi_eq_one.1 h12
  exact ⟨fun i => isReal_of_abs_lt_inf _ (Host.reduce_andi_all _ _ _ _ _ h1 i),
    fun i => isReal_of_abs_lt_inf _ (Host.reduce_andi_all _ _ _ _ _ h2 i),
    fun i => isReal_of_abs_lt_inf _ (Host.reduce_andi_all _ _ _ _ _ h3 i)⟩

end Cert.Pre_finite_inputs.ReadBack

end
-- ==== Proof.lean ====
/-
  One graph-convolution layer, out = A · (X · Wᵀ) with X : [10000, 128], A : [10000, 10000], W : [128, 128], computed by
  a kernel that walks A in 25 bands of 400 rows, against the plain reference.

  The kernel, at grid point t, multiplies rows 400·t … 400·t + 399 of A by X, then the 400 × 128 product by Wᵀ, and
  writes the result to the same rows of the output: entry (i, o) is ∑ j, (∑ k, A (i, k) · X (k, j)) · W (o, j)
  (Payload: the stored block at an index; BandArray: the 25 blocks tile the output). The reference first forms
  h = X · Wᵀ and then A · h: entry (i, o) is ∑ k, A (i, k) · (∑ j, X (k, j) · W (o, j)) (RefValue). The two are equal by
  associativity of the matrix product (Spec), a law that needs distributivity and therefore holds on the extended
  reals only where the entries are real numbers; that every entry of the three arrays is one is what the
  precondition says (Finite). No float literal and no named constant occurs on either side, and the idealized
  kernel is the kernel's own text read at the exact instance, so that conjunct is trivial. The three frame
  conjuncts are the generated frames of the two kernel programs and the reference's generated run with its
  result dropped.
-/
import proofs.«131289_g11158325035210_week1_w3_1128_17_alg».proof.Defs
import proofs.«131289_g11158325035210_week1_w3_1128_17_alg».proof.Proof.Gen.Kernel
import proofs.«131289_g11158325035210_week1_w3_1128_17_alg».proof.Proof.Gen.Kernel.Skeleton
import proofs.«131289_g11158325035210_week1_w3_1128_17_alg».proof.Proof.Gen.Kernel.Launch
import proofs.«131289_g11158325035210_week1_w3_1128_17_alg».proof.Proof.Gen.Kernel.Points
import proofs.«131289_g11158325035210_week1_w3_1128_17_alg».proof.Proof.Gen.Kernel.Frame
import proofs.«131289_g11158325035210_week1_w3_1128_17_alg».proof.Proof.Gen.KernelIdeal
import proofs.«131289_g11158325035210_week1_w3_1128_17_alg».proof.Proof.Gen.KernelIdeal.Skeleton
import proofs.«131289_g11158325035210_week1_w3_1128_17_alg».proof.Proof.Gen.KernelIdeal.Launch
import proofs.«131289_g11158325035210_week1_w3_1128_17_alg».proof.Proof.Gen.KernelIdeal.Points
import proofs.«131289_g11158325035210_week1_w3_1128_17_alg».proof.Proof.Gen.KernelIdeal.Frame
import proofs.«131289_g11158325035210_week1_w3_1128_17_alg».proof.Proof.Gen.ReferenceIdeal
import proofs.«131289_g11158325035210_week1_w3_1128_17_alg».proof.Proof.Gen.Pre_finite_inputs
import proofs.«131289_g11158325035210_week1_w3_1128_17_alg».proof.Proof.Gen.KernelIdeal.Value
import proofs.«131289_g11158325035210_week1_w3_1128_17_alg».proof.Proof.Gen.ReferenceIdeal.Run
import proofs.«131289_g11158325035210_week1_w3_1128_17_alg».proof.Proof.Gen.ReferenceIdeal.Read
import proofs.«131289_g11158325035210_week1_w3_1128_17_alg».proof.Proof.Spec
import proofs.«131289_g11158325035210_week1_w3_1128_17_alg».proof.Proof.RefValue
import proofs.«131289_g11158325035210_week1_w3_1128_17_alg».proof.Proof.Payload
import proofs.«131289_g11158325035210_week1_w3_1128_17_alg».proof.Proof.BandArray
import proofs.«131289_g11158325035210_week1_w3_1128_17_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel and its exact reading. -/
theorem preserves : Cert.preserves_Kernel_KernelIdeal := trivial

/-- From memories that agree on X, A and W, all of whose entries are real numbers, the kernel's output array ends
    at the band-wise arrangement and the reference's at the layer-wise one of the same arguments: one function
    by associativity of the matrix product. -/
theorem algebraic : Cert.algebraic_KernelIdeal_ReferenceIdeal := by
  intro m ρ m' ρ' hpre hagree
  refine ⟨_, Cert.KernelIdeal.Band.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hW⟩ := Cert.Pre_finite_inputs.ReadBack.all_real _ _ _ (hpre c)
  rw [Cert.ReferenceIdeal.Read.val_main_v2_eq, Cert.ReferenceIdeal.RefValue.result_eq,
    (hagree c).1, (hagree c).2.1, (hagree c).2.2]
  exact (Cert.GraphLayer.bandwise_eq_layerwise _ _ _ hX hA hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
